-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S100000x128, .f32⟩
  | .hbm, ⟨18, _⟩ => ⟨S600000x1, .i32⟩
  | .hbm, ⟨19, _⟩ => ⟨S100000x128, .f32⟩
  | .hbm, ⟨20, _⟩ => ⟨S128x128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000, .f32⟩
  | .hbm, ⟨40, _⟩ => ⟨S100000x1, .f32⟩
  | .hbm, ⟨41, _⟩ => ⟨S_, .f32⟩
  | .hbm, ⟨42, _⟩ => ⟨S100000x1, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdate.lean ====
/-
  One node's update in a graph convolution followed by layer normalisation, over the extended reals.

  A node carries 128 features. Its aggregated messages `u` go through a linear layer (`u · w + b`, the weight read as
  `w k j`: input feature `k` to output feature `j`), a rectifier (`max · 0`) and a residual connection (`+ h`, the node's own
  features). The 128 numbers obtained are then normalised: their mean is taken off, the result is scaled by the reciprocal
  square root of the variance plus a small constant, and an affine map (`g`, `β`) is applied feature by feature. Every
  operation is the exact one of the extended reals (a sum is a sum in any order, a quotient is `Ideal.div`, the reciprocal square
  root is `Ideal.rsqrt`), and the three float constants are kept as the binary words both programs spell: nothing here needs
  to know their values.

  `updated` lifts the row function to the whole node table: row `r` of the result depends on row `r` of the aggregated
  messages and of the features, on the whole weight matrix and on the three parameter vectors.
-/
import Idealize.ShloMosaic.PureOps.Ideal
import Idealize.ShloMosaic.Lib.ValueIdx

noncomputable section

open scoped BigOperators

namespace Cert.NodeUpdate

open Idealize.ShloMosaic Idealize.ShloMosaic.ValueIdx

/-- The number of features, 128, as the f32 word both programs divide by. -/
abbrev width : EReal := Ideal.ofBits .f32 0x43000000#32
/-- The constant added to the variance, as the f32 word both programs add. -/
abbrev eps : EReal := Ideal.ofBits .f32 0x3727C5AC#32
/-- The rectifier's threshold, the f32 zero word. -/
abbrev floor0 : EReal := Ideal.ofBits .f32 0x00000000#32

/-- Feature `j` of a node before normalisation: the linear layer of the aggregated messages, rectified, plus the node's own
    feature. -/
def act (u h : Fin 128 → EReal) (w : Fin 128 → Fin 128 → EReal) (b : Fin 128 → EReal) (j : Fin 128) : EReal :=
  max ((∑ k : Fin 128, u k * w k j) + b j) floor0 + h j

/-- The mean of a node's 128 numbers. -/
def mean (x : Fin 128 → EReal) : EReal := Ideal.div (∑ l : Fin 128, x l) width

/-- Their variance about that mean. -/
def var (x : Fin 128 → EReal) : EReal := Ideal.div (∑ l : Fin 128, (x l - mean x) * (x l - mean x)) width

/-- Layer normalisation of one node's numbers, with scale `g` and shift `β`. -/
def layerNorm (x g β : Fin 128 → EReal) (j : Fin 128) : EReal :=
  (x j - mean x) * Ideal.rsqrt (var x + eps) * g j + β j

/-- The whole update of one node. -/
def update (u h : Fin 128 → EReal) (w : Fin 128 → Fin 128 → EReal) (b g β : Fin 128 → EReal) (j : Fin 128) : EReal :=
  layerNorm (act u h w b) g β j

/-- The update of every node of the table: `U` the aggregated messages, `H` the features, `W` the linear layer's weight as
    stored (output feature first, so the layer multiplies by its transpose), `b`, `g`, `β` the bias, scale and shift. -/
def updated (U H : (⟨2, ![100000, 128]⟩ : Shape).Idx → EReal) (W : (⟨2, ![128, 128]⟩ : Shape).Idx → EReal)
    (b g β : (⟨1, ![128]⟩ : Shape).Idx → EReal) : (⟨2, ![100000, 128]⟩ : Shape).Idx → EReal :=
  fun i => update (fun k => U (ix2 (i 0 : Fin 100000) k)) (fun l => H (ix2 (i 0 : Fin 100000) l)) (fun k j => W (ix2 j k))
    (fun l => b (ix1 l)) (fun l => g (ix1 l)) (fun l => β (ix1 l)) (i 1 : Fin 128)

/-- Read at an index given by its coordinates. -/
theorem updated_apply (U H : (⟨2, ![100000, 128]⟩ : Shape).Idx → EReal) (W : (⟨2, ![128, 128]⟩ : Shape).Idx → EReal)
    (b g β : (⟨1, ![128]⟩ : Shape).Idx → EReal) (r : Fin 100000) (j : Fin 128) :
    updated U H W b g β (ix2 r j) = update (fun k => U (ix2 r k)) (fun l => H (ix2 r l)) (fun k j => W (ix2 j k))
      (fun l => b (ix1 l)) (fun l => g (ix1 l)) (fun l => β (ix1 l)) j := rfl

end Cert.NodeUpdate

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.KernelRow.lean ====
/-
  What the kernel's body leaves in one output block, read entry by entry.

  A block holds 2000 nodes. The body multiplies the block of aggregated messages by the (already transposed) weight matrix on
  the matrix unit, adds the bias row, rectifies, adds the block of node features, and normalises each row. Read at entry
  (p, q) this is the node update (`NodeUpdate.update`) of row p of the two blocks, the weight matrix read as `w k j` = entry
  (k, j), and the three parameter rows. The body's arithmetic is cut in two: the value before normalisation (`pre`), a
  function of four loads, and the normalisation (`normed`) of any 2000 × 128 value. The matrix product at an entry is the sum over
  the contracted coordinate, a lane reduction at a row is the sum of the row, and the layout operations (a vector made a
  column, a column or a row repeated across the block) only re-read one entry.
-/
import proofs.«137793_j65197603553461_1_alg».proof.Proof.Gen.KernelIdeal.Skeleton
import proofs.«137793_j65197603553461_1_alg».proof.Proof.NodeUpdate
import proofs.«137793_j65197603553461_1_alg».proof.Proof.LibKeepdimsLayout
import proofs.«137793_j65197603553461_1_alg».proof.Proof.LibDotInner
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.Row

open Cert.KernelIdeal Cert.KernelIdeal.Gen Idealize.ShloMosaic Idealize.ShloMosaic.ValueIdx Cert.NodeUpdate

/-! ## The body's arithmetic in two parts -/

section parts
variable {F : FTy → Type} [FloatOps F]

/-- The block before normalisation: messages times weight, plus bias, rectified, plus features. -/
def pre (v0 : Vec F S2000x128 .f32) (v2 : Vec F S2000x128 .f32) (v4 : Vec F S128x128 .f32) (v8 : Vec F S1x128 .f32) : FVec F S2000x128 .f32 :=
  have v1 : FVec F S2000x128 .f32 := shapeCast S2000x128 v0 shapeCasts_S2000x128_S2000x128
  have v3 : FVec F S2000x128 .bf16 := truncf .bf16 v1 bitsLt_bf16_f32
  have v5 : FVec F S128x128 .f32 := shapeCast S128x128 v4 shapeCasts_S128x128_S128x128
  have v6 : FVec F S128x128 .bf16 := truncf .bf16 v5 bitsLt_bf16_f32
  have cst : FVec F S2000x128 .f32 := constant S2000x128 .f32 0x00000000#32
  have v7 : FVec F S2000x128 .f32 := matmul dot_S2000x128_S128x128_S2000x128_1_0_0_1_n_n none v3 v6 cst
  have v9 : FVec F S1x128 .f32 := shapeCast S1x128 v8 shapeCasts_S1x128_S1x128
  have v10 : FVec F S2000x128 .f32 := broadcastTo S2000x128 v9 broadcasts_S1x128_S2000x128
  have v11 : FVec F S2000x128 .f32 := addf v7 v10
  have cst_7 : F .f32 := Scalar.ofBits .f32 0x00000000#32
  have v12 : FVec F S2000x128 .f32 := broadcast S2000x128 cst_7
  have v13 : FVec F S2000x128 .f32 := maximumf v11 v12
  have v14 : FVec F S2000x128 .f32 := addf v13 v2
  v14

/-- The mean of each row, as a column. -/
def colMean (v14 : FVec F S2000x128 .f32) : FVec F S2000x1 .f32 :=
  have v15 : FVec F S2000 .f32 := multiReduction .add [1] S2000 v14 0x00000000#32 reduces_S2000x128_S2000 (.inl rfl) rfl
  have v16 : FVec F S2000x1 .f32 := shapeCast S2000x1 v15 shapeCasts_S2000_S2000x1
  have cst_9 : F .f32 := Scalar.ofBits .f32 0x43000000#32
  have v17 : FVec F S2000x1 .f32 := broadcast S2000x1 cst_9
  have v18 : FVec F S2000x1 .f32 := divf v16 v17
  v18

/-- Each entry less its row's mean. -/
def centred (v14 : FVec F S2000x128 .f32) : FVec F S2000x128 .f32 :=
  have v19 : FVec F S2000x128 .f32 := broadcastTo S2000x128 (colMean v14) broadcasts_S2000x1_S2000x128
  have v20 : FVec F S2000x128 .f32 := subf v14 v19
  v20

/-- The reciprocal square root of each row's variance plus the small constant, as a column. -/
def colScale (v14 : FVec F S2000x128 .f32) : FVec F S2000x1 .f32 :=
  have v20 : FVec F S2000x128 .f32 := centred v14
  have v21 : FVec F S2000x128 .f32 := mulf v20 v20
  have v22 : FVec F S2000 .f32 := multiReduction .add [1] S2000 v21 0x00000000#32 reduces_S2000x128_S2000 (.inl rfl) rfl
  have v23 : FVec F S2000x1 .f32 := shapeCast S2000x1 v22 shapeCasts_S2000_S2000x1
  have cst_11 : F .f32 := Scalar.ofBits .f32 0x43000000#32
  have v24 : FVec F S2000x1 .f32 := broadcast S2000x1 cst_11
  have v25 : FVec F S2000x1 .f32 := divf v23 v24
  have cst_12 : F .f32 := Scalar.ofBits .f32 0x3727C5AC#32
  have v26 : FVec F S2000x1 .f32 := broadcast S2000x1 cst_12
  have v27 : FVec F S2000x1 .f32 := addf v25 v26
  have v28 : FVec F S2000x1 .f32 := rsqrt v27
  v28

/-- The normalised block times the scale row. -/
def normed (v14 : FVec F S2000x128 .f32) (v33 : Vec F S1x128 .f32) : FVec F S2000x128 .f32 :=
  have v30 : FVec F S2000x128 .f32 := centred v14
  have v31 : FVec F S2000x128 .f32 := broadcastTo S2000x128 (colScale v14) broadcasts_S2000x1_S2000x128
  have v32 : FVec F S2000x128 .f32 := mulf v30 v31
  have v34 : FVec F S1x128 .f32 := shapeCast S1x128 v33 shapeCasts_S1x128_S1x128
  have v35 : FVec F S2000x128 .f32 := broadcastTo S2000x128 v34 broadcasts_S1x128_S2000x128
  have v36 : FVec F S2000x128 .f32 := mulf v32 v35
  v36

/-- The body's stored value is the normalisation of `pre`, scaled, plus the shift row. -/
theorem stored_eq (v0 : Vec F S2000x128 .f32) (v2 : Vec F S2000x128 .f32) (v4 : Vec F S128x128 .f32) (v8 : Vec F S1x128 .f32)
    (v33 : Vec F S1x128 .f32) (v37 : Vec F S1x128 .f32) :
    k0_pay1 (k0_pay2 v0 v2 v4 v8 v33) (k0_pay3 v37)
      = addf (normed (pre v0 v2 v4 v8) v33)
          (broadcastTo S2000x128 (shapeCast S1x128 v37 shapeCasts_S1x128_S1x128) broadcasts_S1x128_S2000x128) := rfl

end parts

/-! ## Read at an entry, over the extended reals -/

/-- A lane reduction read at row `p` is the sum of the row. -/
theorem rowSum_apply (X : FVec Ideal S2000x128 .f32) (hφ : FKind.Formats .f32)
    (hacc : (0x00000000#32 : BitVec 32) = FKind.add.neutral .f32 hφ) (p : Fin 2000) :
    multiReduction .add [1] S2000 X 0x00000000#32 reduces_S2000x128_S2000 hφ hacc (ix1 p) = ∑ l : Fin 128, X (ix2 p l) :=
  (Ideal.multiReduction_add_single X 0x00000000#32 reduces_S2000x128_S2000 hφ hacc (ix1 p)).trans
    (Finset.sum_congr rfl fun l _ => congrArg X (funext fun a => Fin.ext (by
      match a with
      | ⟨0, _⟩ => rfl
      | ⟨1, _⟩ => rfl)))

/-- The matrix product's dimension numbers: the result's row is the left operand's row, its column the right operand's
    column, and the contracted coordinate is the left operand's column and the right operand's row. -/
theorem dot_lhs0 (j : S2000x128.Idx) (q : dot_S2000x128_S128x128_S2000x128_1_0_0_1_n_n.contr.Idx) : (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_lhs1 (j : S2000x128.Idx) (q : dot_S2000x128_S128x128_S2000x128_1_0_0_1_n_n.contr.Idx) : (dot_S2000x128_S128x128_S2000x128_1_0_0_1_n_n.lhsIdx j q 1).val = (q ⟨0, by decide⟩).val :=
  dot_S2000x128_S128x128_S2000x128_1_0_0_1_n_n.lhsIdx_val_of_single rfl j q
theorem dot_rhs0 (j : S2000x128.Idx) (q : dot_S2000x128_S128x128_S2000x128_1_0_0_1_n_n.contr.Idx) : (dot_S2000x128_S128x128_S2000x128_1_0_0_1_n_n.rhsIdx j q 0).val = (q ⟨0, by decide⟩).val :=
  dot_S2000x128_S128x128_S2000x128_1_0_0_1_n_n.rhsIdx_val_of_single rfl j q
theorem dot_rhs1 (j : S2000x128.Idx) (q : dot_S2000x128_S128x128_S2000x128_1_0_0_1_n_n.contr.Idx) : (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product from the zero splat, read at entry (p, f): the sum over the contracted coordinate. -/
theorem matmul_entry (A : FVec Ideal S2000x128 .bf16) (B : FVec Ideal S128x128 .bf16) (p : Fin 2000) (f : Fin 128) :
    matmul dot_S2000x128_S128x128_S2000x128_1_0_0_1_n_n none A B (constant (F := Ideal) S2000x128 .f32 0x00000000#32) (ix2 p f)
      = ∑ k : Fin 128, A (ix2 p k) * B (ix2 k f) :=
  Idealize.ShloMosaic.DotInner.matmul_zero_apply dot_S2000x128_S128x128_S2000x128_1_0_0_1_n_n rfl rfl dot_lhs0 dot_lhs1 dot_rhs0 dot_rhs1 none A B p f

/-- The block before normalisation at entry (p, l) is `act` of row p of the two blocks. -/
theorem pre_apply (P0 P1 : Vec Ideal S2000x128 .f32) (P2 : Vec Ideal S128x128 .f32) (P3 : Vec Ideal S1x128 .f32) (p : Fin 2000) (l : Fin 128) :
    pre P0 P1 P2 P3 (ix2 p l)
      = act (fun k => P0 (ix2 p k)) (fun j => P1 (ix2 p j)) (fun k j => P2 (ix2 k j)) (fun j => P3 (ix2 (0 : Fin 1) j)) l := by
  unfold pre act
  simp only [shapeCast_self]
  show max (matmul dot_S2000x128_S128x128_S2000x128_1_0_0_1_n_n none (truncf .bf16 P0 bitsLt_bf16_f32) (truncf .bf16 P2 bitsLt_bf16_f32) (constant (F := Ideal) S2000x128 .f32 0x00000000#32) (ix2 p l)
      + broadcastTo S2000x128 P3 broadcasts_S1x128_S2000x128 (ix2 p l)) (Ideal.ofBits .f32 0x00000000#32) + P1 (ix2 p l) = _
  rw [matmul_entry, broadcastTo_1b_ab_apply]
  rfl

/-- The column of row means at (p, u) is the mean of row p. -/
theorem colMean_apply (X : FVec Ideal S2000x128 .f32) (p : Fin 2000) (u : Fin 1) :
    colMean X (ix2 p u) = mean (fun l => X (ix2 p l)) := by
  unfold colMean mean
  exact congrArg (fun s => Ideal.div s width)
    ((Cert.LayoutKeepdims.shapeCast_a_a1_apply _ shapeCasts_S2000_S2000x1 p u).trans (rowSum_apply X (.inl rfl) rfl p))

/-- An entry less its row's mean. -/
theorem centred_apply (X : FVec Ideal S2000x128 .f32) (p : Fin 2000) (l : Fin 128) :
    centred X (ix2 p l) = X (ix2 p l) - mean (fun l => X (ix2 p l)) := by
  unfold centred
  show X (ix2 p l) - broadcastTo S2000x128 (colMean X) broadcasts_S2000x1_S2000x128 (ix2 p l) = _
  rw [Cert.LayoutKeepdims.broadcastTo_a1_ab_apply, colMean_apply]

/-- The column of scales at (p, u): the reciprocal square root of row p's variance plus the small constant. -/
theorem colScale_apply (X : FVec Ideal S2000x128 .f32) (p : Fin 2000) (u : Fin 1) :
    colScale X (ix2 p u) = Ideal.rsqrt (var (fun l => X (ix2 p l)) + eps) := by
  unfold colScale var
  refine congrArg (fun s => Ideal.rsqrt (Ideal.div s width + eps))
    (((Cert.LayoutKeepdims.shapeCast_a_a1_apply _ shapeCasts_S2000_S2000x1 p u).trans
      (rowSum_apply (mulf (centred X) (centred X)) (.inl rfl) rfl p)).trans (Finset.sum_congr rfl fun l _ => ?_))
  show centred X (ix2 p l) * centred X (ix2 p l) = _
  rw [centred_apply]

/-- The normalised block, scaled, at entry (p, q). -/
theorem normed_apply (X : FVec Ideal S2000x128 .f32) (P4 : Vec Ideal S1x128 .f32) (p : Fin 2000) (q : Fin 128) :
    normed X P4 (ix2 p q)
      = (X (ix2 p q) - mean (fun l => X (ix2 p l))) * Ideal.rsqrt (var (fun l => X (ix2 p l)) + eps) * P4 (ix2 (0 : Fin 1) q) := by
  unfold normed
  simp only [shapeCast_self]
  show centred X (ix2 p q) * broadcastTo S2000x128 (colScale X) broadcasts_S2000x1_S2000x128 (ix2 p q)
      * broadcastTo S2000x128 P4 broadcasts_S1x128_S2000x128 (ix2 p q) = _
  rw [centred_apply, Cert.LayoutKeepdims.broadcastTo_a1_ab_apply, colScale_apply, broadcastTo_1b_ab_apply]

/-- WHAT THE BODY STORES at entry (p, q) of its block: the node update of row p of the two row blocks, with the weight block
    read as (input feature, output feature) and the three parameter rows. -/
theorem stored_apply (P0 P1 : Vec Ideal S2000x128 .f32) (P2 : Vec Ideal S128x128 .f32) (P3 P4 P5 : Vec Ideal S1x128 .f32)
    (p : Fin 2000) (q : Fin 128) :
    k0_pay1 (k0_pay2 P0 P1 P2 P3 P4) (k0_pay3 P5) (ix2 p q)
      = update (fun k => P0 (ix2 p k)) (fun l => P1 (ix2 p l)) (fun k j => P2 (ix2 k j)) (fun l => P3 (ix2 (0 : Fin 1) l))
          (fun l => P4 (ix2 (0 : Fin 1) l)) (fun l => P5 (ix2 (0 : Fin 1) l)) q := by
  rw [stored_eq]
  simp only [shapeCast_self]
  show normed (pre P0 P1 P2 P3) P4 (ix2 p q) + broadcastTo S2000x128 P5 broadcasts_S1x128_S2000x128 (ix2 p q) = _
  rw [normed_apply, broadcastTo_1b_ab_apply]
  unfold update layerNorm
  simp only [pre_apply]

end Cert.KernelIdeal.Row

end
-- ==== Proof.KernelTable.lean ====
/-
  From the blocks the kernel writes to the whole result table.

  The grid has 50 points; point t works on rows 2000·t … 2000·t + 1999 of the node table. Its block of aggregated messages and
  its block of features are those rows of the two tables; the weight block and the three parameter rows are the whole of
  their arrays at every point. The arrays the region finds were prepared on the host: the weight transposed, each parameter
  vector made a one-row matrix, the features untouched. So what point t writes back is rows 2000·t … of the table of node
  updates (`NodeUpdate.updated`) of the aggregated messages as the region finds them and of the ARGUMENT arrays: the transposed
  weight read at (k, j) is the stored weight at (j, k), a one-row matrix read at (0, l) is the vector at l. The 50 blocks
  tile the table (row r lies in block r / 2000), so the table the run leaves is that function everywhere.
-/
import proofs.«137793_j65197603553461_1_alg».proof.Proof.Gen.KernelIdeal.Value
import proofs.«137793_j65197603553461_1_alg».proof.Proof.KernelRow
import Idealize.ShloMosaic.Lib.StableHlo.Run

set_option synthInstance.maxSize 4096

noncomputable section

namespace Cert.KernelIdeal.Table

open Cert.KernelIdeal Cert.KernelIdeal.Gen Idealize.ShloMosaic Idealize.ShloMosaic.TcCoe Idealize.SL.Sem
open Idealize.ShloMosaic.ValueIdx Idealize.ShloMosaic.StableHlo Cert.NodeUpdate
open Idealize.ShloMosaic.Pipeline (Dat)

variable (m : (ℓ : Loc nD τ sig) → Buf (Elt Ideal) ℓ) (ρ : Dev nD → PrngReg)

/-! ## The arrays the host prepared -/

/-- The weight window's array is the weight argument transposed. -/
theorem entry_weight (c : Dev nD) :
    (V m c main_v10 : S128x128.Idx → EReal) = transpose S128x128 [1, 0] (m ((c : Thread nD τ).loc main_arg3)) transposes_S128x128_S128x128_1_0 := by
  dsimp only [Gen.V, Gen.hostOps0]; after_results

/-- The bias window's array is the bias argument as a one-row matrix. -/
theorem entry_bias (c : Dev nD) :
    (V m c main_v11 : S1x128.Idx → EReal) = shapeCast S1x128 (m ((c : Thread nD τ).loc main_arg4)) shapeCasts_S128_S1x128 := by
  dsimp only [Gen.V, Gen.hostOps0]; after_results; rfl

/-- The scale window's array is the scale argument as a one-row matrix. -/
theorem entry_scale (c : Dev nD) :
    (V m c main_v12 : S1x128.Idx → EReal) = shapeCast S1x128 (m ((c : Thread nD τ).loc main_arg5)) shapeCasts_S128_S1x128 := by
  dsimp only [Gen.V, Gen.hostOps0]; after_results; rfl

/-- The shift window's array is the shift argument as a one-row matrix. -/
theorem entry_shift (c : Dev nD) :
    (V m c main_v13 : S1x128.Idx → EReal) = shapeCast S1x128 (m ((c : Thread nD τ).loc main_arg6)) shapeCasts_S128_S1x128 := by
  dsimp only [Gen.V, Gen.hostOps0]; after_results; rfl

/-! ## Where each window's block sits -/

/-- The body's one rectangle per buffer starts at the origin. -/
theorem origin : (![0, 0] : Fin 2 → Nat) = fun _ => 0 := funext fun a => by fin_cases a <;> rfl

/-- The printed index maps, decided over the 50 grid points: the two row windows move with the output window, whose block
    index is the point's number; the weight and the three parameter rows stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val :=
  (by decide +kernel : ∀ t : Fin grid0.N, _)

/-- Row p of point t's block of aggregated messages is the table's row under row p of the output block. -/
theorem blk_messages (c : Dev nD) (t : Fin cfg0.N) (p : Fin 2000) (q k : Fin 128) :
    iblk m c 0 t (ix2 p k) = V m c main_v9 (ix2 ((((cfg0.win 6).blk t).view.emb (ix2 p q)) 0 : Fin 100000) k) := by
  obtain ⟨e00, e01, -⟩ := idx_facts t
  show V m c main_v9 (((cfg0.win 0).blk t).view.emb (ix2 p k)) = _
  have h : ((cfg0.win 0).blk t).view.emb (ix2 p k) = ix2 ((((cfg0.win 6).blk t).view.emb (ix2 p q)) 0 : Fin 100000) k := by
    funext a; apply Fin.ext
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * k.val = k.val; omega
  rw [h]
  rfl

/-- Row p of point t's block of features is that row of the feature argument. -/
theorem blk_features (c : Dev nD) (t : Fin cfg0.N) (p : Fin 2000) (q l : Fin 128) :
    iblk m c 1 t (ix2 p l) = (m ((c : Thread nD τ).loc main_arg0)) (ix2 ((((cfg0.win 6).blk t).view.emb (ix2 p q)) 0 : Fin 100000) l) := by
  obtain ⟨-, -, e10, e11, -⟩ := idx_facts t
  show V m c main_arg0 (((cfg0.win 1).blk t).view.emb (ix2 p l)) = _
  have h : ((cfg0.win 1).blk t).view.emb (ix2 p l) = ix2 ((((cfg0.win 6).blk t).view.emb (ix2 p q)) 0 : Fin 100000) l := by
    funext a; apply Fin.ext
    match a with
    | ⟨0, _⟩ => show win0_1.index t (0 : Fin 2) * 2000 + 1 * p.val = win0_6.index t (0 : Fin 2) * 2000 + 1 * p.val; omega
    | ⟨1, _⟩ => show win0_1.index t (1 : Fin 2) * 128 + 1 * l.val = l.val; omega
  rw [h, V_main_arg0]
  rfl

/-- The weight block at (k, j) is the stored weight at (j, k). -/
theorem blk_weight (c : Dev nD) (t : Fin cfg0.N) (k j : Fin 128) :
    iblk m c 2 t (ix2 k j) = (m ((c : Thread nD τ).loc main_arg3)) (ix2 j k) := by
  obtain ⟨-, -, -, -, e20, e21, -⟩ := idx_facts t
  show V m c main_v10 (((cfg0.win 2).blk t).view.emb (ix2 k j)) = _
  have h : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [h, entry_weight, transpose_ix2_apply]

/-- The bias row at (0, l) is the bias argument at l. -/
theorem blk_bias (c : Dev nD) (t : Fin cfg0.N) (l : Fin 128) :
    iblk m c 3 t (ix2 (0 : Fin 1) l) = (m ((c : Thread nD τ).loc main_arg4)) (ix1 l) := by
  obtain ⟨-, -, -, -, -, -, e30, e31, -⟩ := idx_facts t
  show V m c main_v11 (((cfg0.win 3).blk t).view.emb (ix2 (0 : Fin 1) l)) = _
  have h : ((cfg0.win 3).blk t).view.emb (ix2 (0 : Fin 1) l) = ix2 (0 : Fin 1) l := by
    funext a; apply Fin.ext
    match a with
    | ⟨0, _⟩ => show win0_3.index t (0 : Fin 2) * 1 + 1 * 0 = 0; omega
    | ⟨1, _⟩ => show win0_3.index t (1 : Fin 2) * 128 + 1 * l.val = l.val; omega
  rw [h, entry_bias, shapeCast_a_1a_apply]

/-- The scale row at (0, l) is the scale argument at l. -/
theorem blk_scale (c : Dev nD) (t : Fin cfg0.N) (l : Fin 128) :
    iblk m c 4 t (ix2 (0 : Fin 1) l) = (m ((c : Thread nD τ).loc main_arg5)) (ix1 l) := by
  obtain ⟨-, -, -, -, -, -, -, -, e40, e41, -⟩ := idx_facts t
  show V m c main_v12 (((cfg0.win 4).blk t).view.emb (ix2 (0 : Fin 1) l)) = _
  have h : ((cfg0.win 4).blk t).view.emb (ix2 (0 : Fin 1) l) = ix2 (0 : Fin 1) l := by
    funext a; apply Fin.ext
    match a with
    | ⟨0, _⟩ => show win0_4.index t (0 : Fin 2) * 1 + 1 * 0 = 0; omega
    | ⟨1, _⟩ => show win0_4.index t (1 : Fin 2) * 128 + 1 * l.val = l.val; omega
  rw [h, entry_scale, shapeCast_a_1a_apply]

/-- The shift row at (0, l) is the shift argument at l. -/
theorem blk_shift (c : Dev nD) (t : Fin cfg0.N) (l : Fin 128) :
    iblk m c 5 t (ix2 (0 : Fin 1) l) = (m ((c : Thread nD τ).loc main_arg6)) (ix1 l) := by
  obtain ⟨-, -, -, -, -, -, -, -, -, -, e50, e51, -⟩ := idx_facts t
  show V m c main_v13 (((cfg0.win 5).blk t).view.emb (ix2 (0 : Fin 1) l)) = _
  have h : ((cfg0.win 5).blk t).view.emb (ix2 (0 : Fin 1) l) = ix2 (0 : Fin 1) l := by
    funext a; apply Fin.ext
    match a with
    | ⟨0, _⟩ => show win0_5.index t (0 : Fin 2) * 1 + 1 * 0 = 0; omega
    | ⟨1, _⟩ => show win0_5.index t (1 : Fin 2) * 128 + 1 * l.val = l.val; omega
  rw [h, entry_shift, shapeCast_a_1a_apply]

/-! ## What a point writes back, and the table after the run -/

/-- The node update depends on its seven arguments only. -/
theorem update_congr {u u' h h' : Fin 128 → EReal} {w w' : Fin 128 → Fin 128 → EReal} {b b' g g' β β' : Fin 128 → EReal} {j j' : Fin 128}
    (hu : u = u') (hh : h = h') (hw : w = w') (hb : b = b') (hg : g = g') (hβ : β = β') (hj : j = j') :
    update u h w b g β j = update u' h' w' b' g' β' j' := by
  subst hu hh hw hb hg hβ hj; rfl

/-- The table of updates read at any index, by that index's own coordinates. -/
theorem updated_idx (U H : S100000x128.Idx → EReal) (W : S128x128.Idx → EReal) (b g β : S128.Idx → EReal) (i : S100000x128.Idx) :
    updated U H W b g β i = update (fun k => U (ix2 (i 0 : Fin 100000) k)) (fun l => H (ix2 (i 0 : Fin 100000) l))
      (fun k j => W (ix2 j k)) (fun l => b (ix1 l)) (fun l => g (ix1 l)) (fun l => β (ix1 l)) (i 1 : Fin 128) := rfl

/-- The table this kernel leaves, as a function of the aggregated messages the region finds and of the argument arrays. -/
abbrev table (c : Dev nD) : S100000x128.Idx → EReal :=
  updated (V m c main_v9) (m ((c : Thread nD τ).loc main_arg0)) (m ((c : Thread nD τ).loc main_arg3)) (m ((c : Thread nD τ).loc main_arg4)) (m ((c : Thread nD τ).loc main_arg5)) (m ((c : Thread nD τ).loc main_arg6))

/-- WHAT POINT t WRITES BACK is block t of the table of node updates. -/
theorem flushed_eq (c : Dev nD) (t : Fin cfg0.N) :
    (dats m 0 c).flushed 6 t = ((cfg0.win 6).blk t).view.read (Elt Ideal) (table m c) := by
  show (cfg0.win 6).cut (grid0.coords t) ((dats m 0 c).after 6 t) = _
  rw [after0_6]
  unfold out0_6
  rw [View.canon_unit_zero origin]
  simp only [View.ld_unit_zero (S := S2000x128) origin, View.ld_unit_zero (S := S128x128) origin, View.ld_unit_zero (S := S1x128) origin]
  funext y
  obtain ⟨p, q, rfl⟩ : ∃ (p : Fin 2000) (q : Fin 128), y = ix2 p q := ⟨y 0, y 1, eq_ix2 y⟩
  obtain ⟨-, -, -, -, -, -, -, -, -, -, -, -, e61, -⟩ := idx_facts t
  show k0_pay1 (k0_pay2 (iblk m c 0 t) (iblk m c 1 t) (iblk m c 2 t) (iblk m c 3 t) (iblk m c 4 t)) (k0_pay3 (iblk m c 5 t)) (ix2 p q)
    = table m c (((cfg0.win 6).blk t).view.emb (ix2 p q))
  refine (Row.stored_apply _ _ _ _ _ _ p q).trans (Eq.trans ?_ (updated_idx _ _ _ _ _ _ _).symm)
  exact update_congr (funext fun k => blk_messages m c t p q k) (funext fun l => blk_features m c t p q l)
    (funext fun k => funext fun j => blk_weight m c t k j) (funext fun l => blk_bias m c t l) (funext fun l => blk_scale m c t l)
    (funext fun l => blk_shift m c t l)
    (Fin.ext (by show q.val = win0_6.index t (1 : Fin 2) * 128 + 1 * q.val; omega))

/-- An index of the table is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v14).slice (win0_6.rect t)).set ↔ _
  rw [View.set_slice_whole, Rect.mem_set_unit]
  exact Iff.rfl

/-- The 50 blocks tile the table: row r lies in the block of point r / 2000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; omega
  obtain ⟨-, -, -, -, -, -, -, -, -, -, -, -, e61, e60⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    omega

/-- THE TABLE after the run is the table of node updates. -/
theorem final (c : Dev nD) : (dats m 0 c).arrAt 6 cfg0.N = table m c :=
  (dats m 0 c).arrAt_eq_of_cover 6 (table m c) (fun t _ => flushed_eq m c t) cover

/-- The kernel's run, read: the result array holds the table of node updates, the arguments are unchanged. -/
theorem run : θ_run defs (onTc (τ := τ) (main (F := Ideal))) ⟨m, fun _ => 0, ρ⟩ fun r => ∀ c : Dev nD,
      r.2.mem ((c : Thread nD τ).loc main_v14) = table m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Table

end
-- ==== Proof.ReferenceRow.lean ====
/-
  The reference's result read entry by entry.

  The reference computes on the whole node table: the aggregated messages times the transposed weight (a `dot_general`), plus
  the bias, rectified, plus the features; then each row's mean and variance by a sum over its 128 entries divided by 128, and
  the normalisation with scale and shift. Read at entry (r, j), every stage depends only on row r: the value before
  normalisation is `NodeUpdate.act` of row r of the aggregated messages and of the features, the two column stages are the
  mean and the variance of that row, and the result is `NodeUpdate.update`. Each stage is read through the generated
  one-operation lemmas; what is added here is which entry each layout operation re-reads (row r, column j, or the one
  entry of a unit axis) and that a sum started from the zero word is the sum.
-/
import proofs.«137793_j65197603553461_1_alg».proof.Proof.Gen.ReferenceIdeal.Read
import proofs.«137793_j65197603553461_1_alg».proof.Proof.NodeUpdate

noncomputable section

open scoped BigOperators

namespace Cert.ReferenceIdeal.Row

open Cert.ReferenceIdeal Cert.ReferenceIdeal.Read Idealize.ShloMosaic Idealize.ShloMosaic.ValueIdx Cert.NodeUpdate

variable (x0 : (⟨S100000x128, .f32⟩ : BufTy).Contents (Elt Ideal)) (x1 x2 : (⟨S600000, .i32⟩ : BufTy).Contents (Elt Ideal))
  (x3 : (⟨S128x128, .f32⟩ : BufTy).Contents (Elt Ideal)) (x4 x5 x6 : (⟨S128, .f32⟩ : BufTy).Contents (Elt Ideal))

/-- Row `r` of the table before normalisation, as the reference computes it. -/
abbrev rowAct (r : Fin 100000) : Fin 128 → EReal :=
  act (fun k => val_main_v9 (F := Ideal) x0 x1 x2 (ix2 r k)) (fun j => x0 (ix2 r j)) (fun k j => x3 (ix2 j k)) (fun j => x4 (ix1 j))

/-- Before normalisation: entry (r, l) is `act` of row r. -/
theorem pre_row (r : Fin 100000) (l : Fin 128) :
    val_main_v16 (F := Ideal) x0 x1 x2 x3 x4 (ix2 r l) = rowAct x0 x1 x2 x3 x4 r l := by
  rw [val_main_v16_apply, val_main_v15_apply, val_main_v14_apply, val_main_v11_apply, val_main_v13_apply, val_main_v12_apply,
    val_main_call0_v0_apply, val_main_call0_cst_apply]
  simp only [val_main_v10_apply]
  have e1 : ∀ k : Fin 128, lidx_main_v11 (ix2 r l) k = ix2 r k := fun k => funext fun a => Fin.ext (by
    match a with
    | ⟨0, _⟩ => rfl
    | ⟨1, _⟩ => rfl)
  have e2 : ∀ k : Fin 128, idx_main_v10 (ridx_main_v11 (ix2 r l) k) = ix2 l k := fun k => funext fun a => Fin.ext (by
    match a with
    | ⟨0, _⟩ => rfl
    | ⟨1, _⟩ => rfl)
  have e3 : idx_main_v12 (idx_main_v13 (ix2 r l)) = ix1 l := funext fun a => Fin.ext (by
    match a with
    | ⟨0, _⟩ => rfl)
  simp only [e1, e2, e3]
  rfl

/-- The column of means at (r, u) is the mean of row r. -/
theorem mean_row (r : Fin 100000) (u : Fin 1) :
    val_main_v20 (F := Ideal) x0 x1 x2 x3 x4 (ix2 r u) = mean (rowAct x0 x1 x2 x3 x4 r) := by
  rw [val_main_v20_apply, val_main_v18_apply, val_main_v17_apply, val_main_v19_apply, val_main_cst_2_apply, val_main_cst_1_apply]
  have e : ∀ k : Fin 128, idx_main_v17 (idx_main_v18 (ix2 r u)) k = ix2 r k := fun k => funext fun a => Fin.ext (by
    match a with
    | ⟨0, _⟩ => rfl
    | ⟨1, _⟩ => rfl)
  simp only [e, pre_row]
  unfold mean
  show Ideal.div (Ideal.ofBits .f32 0x00000000#32 + _) _ = _
  rw [Ideal.ofBits_zero_f32, zero_add]
  rfl

/-- An entry less its row's mean (the reference forms this difference twice, from two copies of the mean column). -/
theorem centred_row (r : Fin 100000) (l : Fin 128) :
    val_main_v22 (F := Ideal) x0 x1 x2 x3 x4 (ix2 r l) = rowAct x0 x1 x2 x3 x4 r l - mean (rowAct x0 x1 x2 x3 x4 r) := by
  rw [val_main_v22_apply, val_main_v21_apply, pre_row]
  have e : idx_main_v21 (ix2 r l) = ix2 r (0 : Fin 1) := funext fun a => Fin.ext (by
    match a with
    | ⟨0, _⟩ => rfl
    | ⟨1, _⟩ => rfl)
  rw [e, mean_row]
  rfl

/-- The column of variances at (r, u) is the variance of row r. -/
theorem var_row (r : Fin 100000) (u : Fin 1) :
    val_main_v27 (F := Ideal) x0 x1 x2 x3 x4 (ix2 r u) = var (rowAct x0 x1 x2 x3 x4 r) := by
  rw [val_main_v27_apply, val_main_v25_apply, val_main_v24_apply, val_main_v26_apply, val_main_cst_4_apply, val_main_cst_3_apply]
  have e : ∀ k : Fin 128, idx_main_v24 (idx_main_v25 (ix2 r u)) k = ix2 r k := fun k => funext fun a => Fin.ext (by
    match a with
    | ⟨0, _⟩ => rfl
    | ⟨1, _⟩ => rfl)
  simp only [e, val_main_v23_apply, centred_row]
  unfold var
  show Ideal.div (Ideal.ofBits .f32 0x00000000#32 + _) _ = _
  rw [Ideal.ofBits_zero_f32, zero_add]
  rfl

/-- THE REFERENCE'S RESULT at entry (r, j): the node update of row r. -/
theorem result_row (r : Fin 100000) (j : Fin 128) :
    val_main_v40 (F := Ideal) x0 x1 x2 x3 x4 x5 x6 (ix2 r j)
      = update (fun k => val_main_v9 (F := Ideal) x0 x1 x2 (ix2 r k)) (fun l => x0 (ix2 r l)) (fun k j => x3 (ix2 j k))
          (fun l => x4 (ix1 l)) (fun l => x5 (ix1 l)) (fun l => x6 (ix1 l)) j := by
  rw [val_main_v40_apply, val_main_v37_apply, val_main_v34_apply, val_main_v29_apply, val_main_v28_apply, val_main_v33_apply,
    val_main_v32_apply, val_main_v31_apply, val_main_v30_apply, val_main_cst_5_apply, val_main_v36_apply, val_main_v35_apply,
    val_main_v39_apply, val_main_v38_apply, pre_row]
  have e28 : idx_main_v28 (ix2 r j) = ix2 r (0 : Fin 1) := funext fun a => Fin.ext (by
    match a with
    | ⟨0, _⟩ => rfl
    | ⟨1, _⟩ => rfl)
  have e33 : idx_main_v33 (ix2 r j) = ix2 r (0 : Fin 1) := funext fun a => Fin.ext (by
    match a with
    | ⟨0, _⟩ => rfl
    | ⟨1, _⟩ => rfl)
  have e35 : idx_main_v35 (idx_main_v36 (ix2 r j)) = ix1 j := funext fun a => Fin.ext (by
    match a with
    | ⟨0, _⟩ => rfl)
  have e38 : idx_main_v38 (idx_main_v39 (ix2 r j)) = ix1 j := funext fun a => Fin.ext (by
    match a with
    | ⟨0, _⟩ => rfl)
  rw [e28, e33, e35, e38, mean_row, var_row]
  rfl

/-- So the reference's result is the update of every node of the table. -/
theorem result_eq :
    val_main_v40 (F := Ideal) x0 x1 x2 x3 x4 x5 x6 = updated (val_main_v9 (F := Ideal) x0 x1 x2) x0 x3 x4 x5 x6 := by
  funext i
  obtain ⟨r, j, rfl⟩ : ∃ (r : Fin 100000) (j : Fin 128), i = ix2 r j := ⟨i 0, i 1, eq_ix2 i⟩
  rw [result_row, updated_apply]

end Cert.ReferenceIdeal.Row

end
-- ==== Proof.lean ====
/-
  A graph convolution with layer normalisation: the fused kernel against the plain reference, over the extended reals.

  Both programs first aggregate messages on the host — gather the source nodes' features along the edges and add them into the
  destination nodes' rows — by the same operations on the same arguments, so the table of aggregated messages `U` is one
  term on both sides and is never opened. The kernel then handles 2000 nodes per grid point: `relu (U · Wᵀ + b) + h` on the
  matrix unit (the operands' rounding to bf16 is the identity here), then each row's mean and variance by lane sums divided
  by 128, the reciprocal square root of variance plus a constant, and the affine map. The reference does the same on the whole
  table with a `dot_general` and host reductions. Row by row both are `NodeUpdate.update`:
    * `Proof/NodeUpdate.lean`   the row function and the table of updates;
    * `Proof/KernelRow.lean`    the kernel body's stored block, entry by entry, is the row function of the block's rows;
    * `Proof/KernelTable.lean`  the 50 blocks are the rows of one table, which the run leaves in the result array;
    * `Proof/ReferenceRow.lean` the reference's result, entry by entry, is the row function of the table's rows.
  No law of arithmetic is needed beyond `0 + s = s` for the reference's sums started from the zero word: the two sides
  apply the same exact operations to the same numbers, only tiled differently, so the inputs' finiteness is not used.
  The frames are the generated ones (the reference's is its generated run with the result dropped); the idealisation
  rewrote nothing, so `preserves` is trivial.
-/
import proofs.«137793_j65197603553461_1_alg».proof.Defs
import proofs.«137793_j65197603553461_1_alg».proof.Proof.Gen.Kernel
import proofs.«137793_j65197603553461_1_alg».proof.Proof.Gen.Kernel.Frame
import proofs.«137793_j65197603553461_1_alg».proof.Proof.Gen.KernelIdeal
import proofs.«137793_j65197603553461_1_alg».proof.Proof.Gen.KernelIdeal.Frame
import proofs.«137793_j65197603553461_1_alg».proof.Proof.Gen.KernelIdeal.Value
import proofs.«137793_j65197603553461_1_alg».proof.Proof.Gen.ReferenceIdeal
import proofs.«137793_j65197603553461_1_alg».proof.Proof.Gen.ReferenceIdeal.Run
import proofs.«137793_j65197603553461_1_alg».proof.Proof.Gen.ReferenceIdeal.Read
import proofs.«137793_j65197603553461_1_alg».proof.Proof.Gen.Pre_finite_inputs
import proofs.«137793_j65197603553461_1_alg».proof.Proof.KernelTable
import proofs.«137793_j65197603553461_1_alg».proof.Proof.ReferenceRow
import Idealize.ShloMosaic.Lib.StableHlo.Run

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The aggregated messages the kernel's region finds are the reference's: the same gather and scatter-add of the same
    arguments. -/
theorem messages_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v9 : Cert.KernelIdeal.S100000x128.Idx → EReal)
      = Cert.ReferenceIdeal.Read.val_main_v9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  dsimp only [Cert.KernelIdeal.Gen.V, Cert.KernelIdeal.Gen.hostOps0]; after_results; rfl

/-- Both runs end with the table of node updates of the same aggregated messages and arguments. -/
theorem algebraic : Cert.algebraic_KernelIdeal_ReferenceIdeal := by
  intro m ρ m' ρ' _ hagree
  refine ⟨fun c => Cert.KernelIdeal.Table.table m c, Cert.KernelIdeal.Table.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v40_eq, Cert.ReferenceIdeal.Row.result_eq, (hagree c).1, (hagree c).2.1, (hagree c).2.2.1, (hagree c).2.2.2.1,
    (hagree c).2.2.2.2.1, (hagree c).2.2.2.2.2.1, (hagree c).2.2.2.2.2.2]
  exact congrArg (fun U => Cert.NodeUpdate.updated U _ _ _ _ _) (messages_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
